-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S1x1x4096x4096 : Shape := ⟨4, ![1, 1, 4096, 4096]⟩
abbrev S_ : Shape := ⟨0, ![]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel

variable [Facts]

def fn {F : FTy → Type} [FloatOps F] (main_arg0 : FVec F S2x8x4096x64 .f32) (main_arg1 : FVec F S2x8x4096x64 .f32) (main_arg2 : FVec F S2x8x4096x64 .f32) (main_arg3 : IVec S1x1x4096x4096 32) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x8x4096x64 .f32 := Host.absf main_arg2
  let main_cst_2 : FVec F S_ .f32 := constant S_ .f32 0x7F800000#32
  let main_v10 : FVec F S2x8x4096x64 .f32 := broadcastInDim S2x8x4096x64 ![] bcast_S_S2x8x4096x64 main_cst_2
  let main_v11 : IVec S2x8x4096x64 1 := cmpf .olt main_v9 main_v10
  let main_c_3 : IVec S_ 1 := constantI S_ 1 1#1
  let main_v12 : IVec S_ 1 := (fun x v => Host.reduce IntOp.andi x v reducesTo_S2x8x4096x64_S_d0_1_2_3 h_S_) main_v11 main_c_3
  let main_v13 : IVec S_ 1 := andi main_v8 main_v12
  main_v13
-- ==== Kernel.lean ====
abbrev S2x8x4096x64 : Shape := ⟨4, ![2, 8, 4096, 64]⟩
abbrev S1x1x4096x4096 : Shape := ⟨4, ![1, 1, 4096, 4096]⟩
abbrev S16x4096x64 : Shape := ⟨3, ![16, 4096, 64]⟩
abbrev S4096x4096 : Shape := ⟨2, ![4096, 4096]⟩
abbrev S16x4096x4096 : Shape := ⟨3, ![16, 4096, 4096]⟩
abbrev S1x256x64 : Shape := ⟨3, ![1, 256, 64]⟩
abbrev S1x4096x64 : Shape := ⟨3, ![1, 4096, 64]⟩
abbrev S256x4096 : Shape := ⟨2, ![256, 4096]⟩
abbrev S1x256x4096 : Shape := ⟨3, ![1, 256, 4096]⟩
abbrev S256x64 : Shape := ⟨2, ![256, 64]⟩
abbrev S4096x64 : Shape := ⟨2, ![4096, 64]⟩
abbrev S256 : Shape := ⟨1, ![256]⟩
abbrev S256x1 : Shape := ⟨2, ![256, 1]⟩
abbrev S2x8x4096x4096 : Shape := ⟨4, ![2, 8, 4096, 4096]⟩

abbrev nBuf : Space → Nat
  | .hbm => 15
  | .vmem => 12
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S1x1x4096x4096, .i32⟩
  | .hbm, ⟨4, _⟩ => ⟨S16x4096x64, .f32⟩
  | .hbm, ⟨5, _⟩ => ⟨S16x4096x64, .bf16⟩
  | .hbm, ⟨6, _⟩ => ⟨S16x4096x64, .f32⟩
  | .hbm, ⟨7, _⟩ => ⟨S16x4096x64, .bf16⟩
  | .hbm, ⟨8, _⟩ => ⟨S16x4096x64, .f32⟩
  | .hbm, ⟨9, _⟩ => ⟨S16x4096x64, .bf16⟩
  | .hbm, ⟨10, _⟩ => ⟨S4096x4096, .i32⟩
  | .hbm, ⟨11, _⟩ => ⟨S16x4096x64, .f32⟩
  | .hbm, ⟨12, _⟩ => ⟨S16x4096x4096, .f32⟩
  | .hbm, ⟨13, _⟩ => ⟨S2x8x4096x64, .f32⟩
  | .hbm, ⟨14, _⟩ => ⟨S2x8x4096x4096, .f32⟩
  | .local _ .vmem, ⟨0, _⟩ => ⟨S1x256x64, .bf16⟩
  | .local _ .vmem, ⟨1, _⟩ => ⟨S1x256x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S256x4096, .i32⟩
  | .local _ .vmem, ⟨7, _⟩ => ⟨S256x4096, .i32⟩
  | .local _ .vmem, ⟨8, _⟩ => ⟨S1x256x64, .f32⟩
  | .local _ .vmem, ⟨9, _⟩ => ⟨S1x256x64, .f32⟩
  | .local _ .vmem, ⟨10, _⟩ => ⟨S1x256x4096, .f32⟩
  | .local _ .vmem, ⟨11, _⟩ => ⟨S1x256x4096, .f32⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x8x4096x64_S16x4096x64 : S2x8x4096x64.ShapeCasts S16x4096x64
  bitsLt_bf16_f32 : FTy.bits .bf16 < FTy.bits .f32
  shapeCasts_S1x1x4096x4096_S4096x4096 : S1x1x4096x4096.ShapeCasts S4096x4096
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  shapeCasts_S256x64_S1x256x64 : S256x64.ShapeCasts S1x256x64
  shapeCasts_S16x4096x64_S2x8x4096x64 : S16x4096x64.ShapeCasts S2x8x4096x64
  shapeCasts_S16x4096x4096_S2x8x4096x4096 : S16x4096x4096.ShapeCasts S2x8x4096x4096
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x4096x64.size a
  hwx0_0 : ∀ i : grid0.Coords, EltTy.bits .bf16 = 32 ∨ (Rect.block (s := S16x4096x64) S1x256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .bf16 = 32 ∨ (Rect.block (s := S16x4096x64) S1x4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .bf16 = 32 ∨ (Rect.block (s := S16x4096x64) S1x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .i32 = 32 ∨ (Rect.block (s := S4096x4096) S256x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S16x4096x64.size a
  hwx0_4 : ∀ i : grid0.Coords, EltTy.bits .f32 = 32 ∨ (Rect.block (s := S16x4096x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S16x4096x4096.size a
  hwx0_5 : ∀ i : grid0.Coords, EltTy.bits .f32 = 32 ∨ (Rect.block (s := S16x4096x4096) S1x256x4096.size (cc0_transform_5 i) (hinb0_5 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v1) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x8x4096x64 : Shape := ⟨4, ![2, 8, 4096, 64]⟩
abbrev S1x1x4096x4096 : Shape := ⟨4, ![1, 1, 4096, 4096]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S1x1x4096x4096, .i32⟩
  | .hbm, ⟨4, _⟩ => ⟨S2x8x4096x4096, .f32⟩
  | .hbm, ⟨5, _⟩ => ⟨S_, .f32⟩
  | .hbm, ⟨6, _⟩ => ⟨S2x8x4096x4096, .f32⟩
  | .hbm, ⟨7, _⟩ => ⟨S2x8x4096x4096, .f32⟩
  | .hbm, ⟨8, _⟩ => ⟨S_, .i32⟩
  | .hbm, ⟨9, _⟩ => ⟨S1x1x4096x4096, .i32⟩
  | .hbm, ⟨10, _⟩ => ⟨S1x1x4096x4096, .i1⟩
  | .hbm, ⟨11, _⟩ => ⟨S_, .f32⟩
  | .hbm, ⟨12, _⟩ => ⟨S_, .f32⟩
  | .hbm, ⟨13, _⟩ => ⟨S2x8x4096x4096, .i1⟩
  | .hbm, ⟨14, _⟩ => ⟨S2x8x4096x4096, .f32⟩
  | .hbm, ⟨15, _⟩ => ⟨S2x8x4096x4096, .f32⟩
  | .hbm, ⟨16, _⟩ => ⟨S_, .f32⟩
  | .hbm, ⟨17, _⟩ => ⟨S2x8x4096, .f32⟩
  | .hbm, ⟨18, _⟩ => ⟨S_, .f32⟩
  | .hbm, ⟨19, _⟩ => ⟨S2x8x4096, .f32⟩
  | .hbm, ⟨20, _⟩ => ⟨S2x8x4096, .f32⟩
  | .hbm, ⟨21, _⟩ => ⟨S2x8x4096x1, .f32⟩
  | .hbm, ⟨22, _⟩ => ⟨S2x8x4096x4096, .f32⟩
  | .hbm, ⟨23, _⟩ => ⟨S2x8x4096x4096, .f32⟩
  | .hbm, ⟨24, _⟩ => ⟨S2x8x4096x4096, .f32⟩
  | .hbm, ⟨25, _⟩ => ⟨S_, .f32⟩
  | .hbm, ⟨26, _⟩ => ⟨S2x8x4096, .f32⟩
  | .hbm, ⟨27, _⟩ => ⟨S2x8x4096x1, .f32⟩
  | .hbm, ⟨28, _⟩ => ⟨S2x8x4096x4096, .f32⟩
  | .hbm, ⟨29, _⟩ => ⟨S2x8x4096x4096, .f32⟩
  | .hbm, ⟨30, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S2x8x4096x4096 : S_.BroadcastsInDim S2x8x4096x4096 (![] : Fin 0 → Fin S2x8x4096x4096.rank)
  bcast_S_S1x1x4096x4096 : S_.BroadcastsInDim S1x1x4096x4096 (![] : Fin 0 → Fin S1x1x4096x4096.rank)
  bcast_S1x1x4096x4096_S2x8x4096x4096_0_1_2_3 : S1x1x4096x4096.BroadcastsInDim S2x8x4096x4096 (![0, 1, 2, 3] : Fin 4 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.PayScores.lean ====
/-
  The body's first stage read at an index: the product of the query block with the transposed key block,
  scaled.  With `x0` the `[1, 256, 64]` query block and `x1` the `[1, 4096, 64]` key block, entry
  `(p, c)` is `(∑ d, x0 (0, p, d) * x1 (0, c, d)) * (1/8)`: the blocks' leading unit axis is dropped, the
  matrix product contracts axis 1 of both operands, and the scale is a splat.
-/
import proofs.«112082_j3281355014500_2_alg».proof.Proof.Gen.KernelIdeal.Skeleton
import proofs.«112082_j3281355014500_2_alg».proof.Proof.LibDotRowsT
import Idealize.ShloMosaic.Lib.ValueLayout
import Idealize.ShloMosaic.Lib.Pipeline.Value

noncomputable section

open scoped BigOperators

namespace Cert.KernelIdeal.PayValue

open Cert.KernelIdeal Cert.KernelIdeal.Gen Idealize.ShloMosaic Idealize.ShloMosaic.ValueIdx

/-- The query-key product's dimension numbers, coordinate by coordinate. -/
theorem qk_l0 (j : S256x4096.Idx) (k : dot_S256x64_S4096x64_S256x4096_1_1_0_0_n_n.contr.Idx) :
    (dot_S256x64_S4096x64_S256x4096_1_1_0_0_n_n.lhsIdx j k 0).val = (j 0).val := by
  unfold DotDims.lhsIdx
  rw [dif_neg (show ¬(0 : Fin S256x64.rank) ∈ dot_S256x64_S4096x64_S256x4096_1_1_0_0_n_n.lhsBatch by decide),
    dif_pos (show (0 : Fin S256x64.rank) ∈ dot_S256x64_S4096x64_S256x4096_1_1_0_0_n_n.lhsNonContracting by decide)]
  rfl
theorem qk_l1 (j : S256x4096.Idx) (k : dot_S256x64_S4096x64_S256x4096_1_1_0_0_n_n.contr.Idx) :
    (dot_S256x64_S4096x64_S256x4096_1_1_0_0_n_n.lhsIdx j k 1).val = (k ⟨0, by decide⟩).val :=
  dot_S256x64_S4096x64_S256x4096_1_1_0_0_n_n.lhsIdx_val_of_single rfl j k
theorem qk_r0 (j : S256x4096.Idx) (k : dot_S256x64_S4096x64_S256x4096_1_1_0_0_n_n.contr.Idx) :
    (dot_S256x64_S4096x64_S256x4096_1_1_0_0_n_n.rhsIdx j k 0).val = (j 1).val := by
  unfold DotDims.rhsIdx
  rw [dif_neg (show ¬(0 : Fin S4096x64.rank) ∈ dot_S256x64_S4096x64_S256x4096_1_1_0_0_n_n.rhsBatch by decide),
    dif_pos (show (0 : Fin S4096x64.rank) ∈ dot_S256x64_S4096x64_S256x4096_1_1_0_0_n_n.rhsNonContracting by decide)]
  rfl
theorem qk_r1 (j : S256x4096.Idx) (k : dot_S256x64_S4096x64_S256x4096_1_1_0_0_n_n.contr.Idx) :
    (dot_S256x64_S4096x64_S256x4096_1_1_0_0_n_n.rhsIdx j k 1).val = (k ⟨0, by decide⟩).val :=
  dot_S256x64_S4096x64_S256x4096_1_1_0_0_n_n.rhsIdx_val_of_single rfl j k

/-- The scaled scores of a query block against a key block. -/
def scores (x0 : Vec Ideal S1x256x64 .bf16) (x1 : Vec Ideal S1x4096x64 .bf16) : FVec Ideal S256x4096 .f32 :=
  mulf (matmul dot_S256x64_S4096x64_S256x4096_1_1_0_0_n_n none
      (shapeCast S256x64 x0 shapeCasts_S1x256x64_S256x64 : FVec Ideal S256x64 .bf16)
      (shapeCast S4096x64 x1 shapeCasts_S1x4096x64_S4096x64 : FVec Ideal S4096x64 .bf16) (constant S256x4096 .f32 0x00000000#32))
    (broadcast S256x4096 (Scalar.ofBits .f32 0x3E000000#32))

/-- Read at `(p, c)`. -/
theorem scores_apply (x0 : Vec Ideal S1x256x64 .bf16) (x1 : Vec Ideal S1x4096x64 .bf16) (p : Fin 256) (c : Fin 4096) :
    scores x0 x1 (ix2 p c)
      = (∑ d : Fin 64, x0 (ix3 (0 : Fin 1) p d) * x1 (ix3 (0 : Fin 1) c d)) * Ideal.ofBits .f32 0x3E000000#32 := by
  unfold scores
  rw [mulf_apply, broadcast_apply]
  simp only [matmul]
  rw [matmul_zero_rowsT dot_S256x64_S4096x64_S256x4096_1_1_0_0_n_n none rfl rfl qk_l0 qk_l1 qk_r0 qk_r1]
  refine congrArg₂ (· * ·) (Finset.sum_congr rfl fun d _ => ?_) rfl
  rw [shapeCast_1ab_ab_apply, shapeCast_1ab_ab_apply]

end Cert.KernelIdeal.PayValue

end
-- ==== Proof.Spec.lean ====
/-
  Scaled dot-product attention with a zero-means-masked integer mask, as functions on the extended reals.

  For one query row, key column `c` gets the masked score
      s c = -∞                                 if the mask word at (row, c) is 0,
      s c = (∑ d, q d * k c d) * (1/8)          otherwise,
  the row's weights are the softmax of `s`,
      w c = exp (s c - max s) / ∑ c', exp (s c' - max s),
  and the row of the output is `∑ c, w c * v c`.  The weights and the output are stated twice: over the
  `[2, 8, 4096, ·]` arrays (batch and head as two axes) and over the `[16, 4096, ·]` arrays (batch and head
  merged, the mask a `[4096, 4096]` matrix); `attn3_merge` and `out3_merge` say the two agree when the
  rank-3 arrays are the rank-4 ones read at `(b, h) ↦ 8 b + h`.

  The one arithmetic law is that dividing by the f32 word of 8 is multiplying by the f32 word of 1/8, on
  every extended real: both words are exact and the quotient by a nonzero real is the product with its
  inverse, so no finiteness is needed.
-/
import Idealize.ShloMosaic.PureOps.Ideal
import Idealize.ShloMosaic.PureOps.Ideal.Laws
import Idealize.ShloMosaic.Lib.ValueIdx

noncomputable section

open scoped BigOperators

namespace Attn

open Idealize.ShloMosaic Idealize.ShloMosaic.ValueIdx

/-! ## One row -/

/-- The maximum of a row (the fold of `max` from `-∞`). -/
def rowMax (s : Fin 4096 → EReal) : EReal := (Finset.univ : Finset (Fin 4096)).fold max ⊥ s

/-- The shifted exponential of a row's entry. -/
def rowExp (s : Fin 4096 → EReal) (c : Fin 4096) : EReal := Ideal.exp (s c - rowMax s)

/-- The row's normaliser. -/
def rowSum (s : Fin 4096 → EReal) : EReal := ∑ c : Fin 4096, rowExp s c

/-- The softmax of a row at column `c`. -/
def softmax (s : Fin 4096 → EReal) (c : Fin 4096) : EReal := Ideal.div (rowExp s c) (rowSum s)

/-- The masked, scaled score of a query row `q` against a key row `k` under mask word `w`. -/
def mscore (q k : Fin 64 → EReal) (w : BitVec 32) : EReal :=
  Scalar.select (IntOp.cmpi .eq w 0#32) ⊥ ((∑ d : Fin 64, q d * k d) * Ideal.ofBits .f32 0x3E000000#32)

/-! ## The arrays, batch and head as two axes -/

/-- The attention weights over `[2, 8, 4096, 4096]`. -/
def attn (Q K : (⟨4, ![2, 8, 4096, 64]⟩ : Shape).Idx → EReal) (M : (⟨4, ![1, 1, 4096, 4096]⟩ : Shape).Idx → BitVec 32) :
    (⟨4, ![2, 8, 4096, 4096]⟩ : Shape).Idx → EReal := fun i =>
  softmax (fun c' => mscore (fun d => Q (ix4 (i 0) (i 1) (i 2) d)) (fun d => K (ix4 (i 0) (i 1) c' d))
    (M (ix4 (0 : Fin 1) (0 : Fin 1) (i 2) c'))) (i 3)

/-- The attention output over `[2, 8, 4096, 64]`. -/
def out (Q K V : (⟨4, ![2, 8, 4096, 64]⟩ : Shape).Idx → EReal) (M : (⟨4, ![1, 1, 4096, 4096]⟩ : Shape).Idx → BitVec 32) :
    (⟨4, ![2, 8, 4096, 64]⟩ : Shape).Idx → EReal := fun i =>
  ∑ c' : Fin 4096, attn Q K M (ix4 (i 0) (i 1) (i 2) c') * V (ix4 (i 0) (i 1) c' (i 3))

/-! ## The arrays, batch and head merged -/

/-- The attention weights over `[16, 4096, 4096]`. -/
def attn3 (Q K : (⟨3, ![16, 4096, 64]⟩ : Shape).Idx → EReal) (M : (⟨2, ![4096, 4096]⟩ : Shape).Idx → BitVec 32) :
    (⟨3, ![16, 4096, 4096]⟩ : Shape).Idx → EReal := fun i =>
  softmax (fun c' => mscore (fun d => Q (ix3 (i 0) (i 1) d)) (fun d => K (ix3 (i 0) c' d)) (M (ix2 (i 1) c'))) (i 2)

/-- The attention output over `[16, 4096, 64]`. -/
def out3 (Q K V : (⟨3, ![16, 4096, 64]⟩ : Shape).Idx → EReal) (M : (⟨2, ![4096, 4096]⟩ : Shape).Idx → BitVec 32) :
    (⟨3, ![16, 4096, 64]⟩ : Shape).Idx → EReal := fun i =>
  ∑ c' : Fin 4096, attn3 Q K M (ix3 (i 0) (i 1) c') * V (ix3 (i 0) c' (i 2))

/-- The merged batch-and-head coordinate. -/
def bhOf (b : Fin 2) (h : Fin 8) : Fin 16 := ⟨b.val * 8 + h.val, by omega⟩

theorem bhOf_val (b : Fin 2) (h : Fin 8) : (bhOf b h).val = b.val * 8 + h.val := rfl

/-- When the merged arrays are the unmerged ones read at `(b, h) ↦ 8 b + h`, so are the weights. -/
theorem attn3_merge (Q K : (⟨4, ![2, 8, 4096, 64]⟩ : Shape).Idx → EReal) (M : (⟨4, ![1, 1, 4096, 4096]⟩ : Shape).Idx → BitVec 32)
    (Q3 K3 : (⟨3, ![16, 4096, 64]⟩ : Shape).Idx → EReal) (M2 : (⟨2, ![4096, 4096]⟩ : Shape).Idx → BitVec 32)
    (hQ : ∀ b h r d, Q3 (ix3 (bhOf b h) r d) = Q (ix4 b h r d))
    (hK : ∀ b h r d, K3 (ix3 (bhOf b h) r d) = K (ix4 b h r d))
    (hM : ∀ r c, M2 (ix2 r c) = M (ix4 (0 : Fin 1) (0 : Fin 1) r c))
    (b : Fin 2) (h : Fin 8) (r c : Fin 4096) :
    attn3 Q3 K3 M2 (ix3 (bhOf b h) r c) = attn Q K M (ix4 b h r c) := by
  unfold attn3 attn
  show softmax (fun c' => mscore (fun d => Q3 (ix3 (bhOf b h) r d)) (fun d => K3 (ix3 (bhOf b h) c' d)) (M2 (ix2 r c'))) c
    = softmax (fun c' => mscore (fun d => Q (ix4 b h r d)) (fun d => K (ix4 b h c' d)) (M (ix4 (0 : Fin 1) (0 : Fin 1) r c'))) c
  simp only [hQ, hK, hM]

/-- And so is the output. -/
theorem out3_merge (Q K V : (⟨4, ![2, 8, 4096, 64]⟩ : Shape).Idx → EReal) (M : (⟨4, ![1, 1, 4096, 4096]⟩ : Shape).Idx → BitVec 32)
    (Q3 K3 V3 : (⟨3, ![16, 4096, 64]⟩ : Shape).Idx → EReal) (M2 : (⟨2, ![4096, 4096]⟩ : Shape).Idx → BitVec 32)
    (hQ : ∀ b h r d, Q3 (ix3 (bhOf b h) r d) = Q (ix4 b h r d))
    (hK : ∀ b h r d, K3 (ix3 (bhOf b h) r d) = K (ix4 b h r d))
    (hV : ∀ b h r d, V3 (ix3 (bhOf b h) r d) = V (ix4 b h r d))
    (hM : ∀ r c, M2 (ix2 r c) = M (ix4 (0 : Fin 1) (0 : Fin 1) r c))
    (b : Fin 2) (h : Fin 8) (r : Fin 4096) (d : Fin 64) :
    out3 Q3 K3 V3 M2 (ix3 (bhOf b h) r d) = out Q K V M (ix4 b h r d) := by
  unfold out3 out
  show ∑ c' : Fin 4096, attn3 Q3 K3 M2 (ix3 (bhOf b h) r c') * V3 (ix3 (bhOf b h) c' d)
    = ∑ c' : Fin 4096, attn Q K M (ix4 b h r c') * V (ix4 b h c' d)
  refine Finset.sum_congr rfl fun c' _ => ?_
  rw [attn3_merge Q K M Q3 K3 M2 hQ hK hM, hV]

/-! ## The scale -/

/-- The f32 word `0x41000000` is 8. -/
theorem ofBits_eight : Ideal.ofBits .f32 0x41000000#32 = ((8 : ℝ) : EReal) := by
  simp [Ideal.ofBits, Ideal.ieee, -EReal.coe_mul]; norm_num

/-- The f32 word `0x3E000000` is 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (x : EReal) :
    Ideal.div x (Ideal.ofBits .f32 0x41000000#32) = x * Ideal.ofBits .f32 0x3E000000#32 := by
  rw [ofBits_eight, ofBits_eighth]
  exact Ideal.div_coe (by norm_num) x

end Attn

end
-- ==== Proof.LibRowMax.lean ====
import Idealize.ShloMosaic.Lib.ValueIdx
import Idealize.ShloMosaic.PureOps.Ideal.Laws

/-!
  A ROW MAXIMUM AS A FOLD.

  The host's reduction with a maximum body over the LAST axis of a rank-2 array `x : [N, J]` is, at the ideal
  values and at row `r`, the fold of `max` from the initial value over the row's entries `x (r, c')`, `c' < J`.
  The maximum is commutative and associative, so the order in which the host visits the row does not matter.
  The f32 word `0xFF800000` reads as `-∞`, the least extended real, so a fold of `max` from it is the maximum of
  the entries alone; the f32 word `0x00000000` reads as `0`.
-/

open Idealize.ShloMosaic Idealize.ShloMosaic.ValueIdx

namespace RowMax

variable {N J : Nat}

/-- Dropping the last axis of `[N, J]` leaves `[N]`, a shape with an axis: the host's shape fact gives the
    vector reduction's. -/
theorem reduces_of_reducesTo (h' : (⟨2, ![N, J]⟩ : Shape).ReducesTo [1] (⟨1, ![N]⟩ : Shape)) :
    (⟨2, ![N, J]⟩ : Shape).Reduces [1] (⟨1, ![N]⟩ : Shape) :=
  ⟨h'.1, Nat.one_pos, h'.2⟩

/-- Row `r` with column `k` put back is `(r, k)`. -/
theorem lift_ix2 (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- THE ROW MAXIMUM AT A ROW: the fold of `max` from the initial value's element over the row's entries. -/
theorem hostReduce_maximumf_rows {φ : FTy} {u : Shape} (x : FVec Ideal ⟨2, ![N, J]⟩ φ) (init : u.Idx → Ideal φ)
    (h' : (⟨2, ![N, J]⟩ : Shape).ReducesTo [1] (⟨1, ![N]⟩ : Shape)) (hu : 0 < u.numel) (r : Fin N) :
    Host.reduce FloatOps.maximumf x init h' hu (ix1 r)
      = (Finset.univ : Finset (Fin J)).fold max (init (Shape.Idx.first hu)) (fun c' => x (ix2 r c')) := by
  have h := reduces_of_reducesTo h'
  rw [Host.reduce_eq_fold_single FloatOps.maximumf x init h' h hu]
  have hf : (x ∘ h.lift (ix1 r)) = fun c' : Fin J => x (ix2 r c') :=
    funext fun k => congrArg x (lift_ix2 h r k)
  exact congrArg (fun f => Finset.fold max (init (Shape.Idx.first hu)) f (Finset.univ : Finset (Fin J))) hf

/-- The same from a constant initial value `v`. -/
theorem hostReduce_maximumf_rows_const {φ : FTy} {u : Shape} (x : FVec Ideal ⟨2, ![N, J]⟩ φ) (v : Ideal φ)
    (h' : (⟨2, ![N, J]⟩ : Shape).ReducesTo [1] (⟨1, ![N]⟩ : Shape)) (hu : 0 < u.numel) (r : Fin N) :
    Host.reduce FloatOps.maximumf x (fun _ : u.Idx => v) h' hu (ix1 r)
      = (Finset.univ : Finset (Fin J)).fold max v (fun c' => x (ix2 r c')) :=
  hostReduce_maximumf_rows x (fun _ : u.Idx => v) h' hu r

/-- The same from a constant array holding the word `b`: the fold starts from what `b` reads as. -/
theorem hostReduce_maximumf_rows_constant {φ : FTy} {u : Shape} (x : FVec Ideal ⟨2, ![N, J]⟩ φ) (b : BitVec φ.bits)
    (h' : (⟨2, ![N, J]⟩ : Shape).ReducesTo [1] (⟨1, ![N]⟩ : Shape)) (hu : 0 < u.numel) (r : Fin N) :
    Host.reduce FloatOps.maximumf x (constant (F := Ideal) u φ b) h' hu (ix1 r)
      = (Finset.univ : Finset (Fin J)).fold max (Ideal.ofBits φ b) (fun c' => x (ix2 r c')) :=
  hostReduce_maximumf_rows x (constant (F := Ideal) u φ b) h' hu r

/-! ## Two f32 words -/

/-- The f32 word `0xFF800000` is `-∞`, the least extended real. -/
theorem ofBits_ninf_f32 : Ideal.ofBits .f32 0xFF800000#32 = ⊥ := by
  simp [Ideal.ofBits, Ideal.ieee]

/-- So the maximum of it with anything is that thing. -/
theorem max_ninf_left (y : EReal) : max (Ideal.ofBits .f32 0xFF800000#32) y = y := by
  rw [ofBits_ninf_f32]; exact max_bot_left y

theorem max_ninf_right (y : EReal) : max y (Ideal.ofBits .f32 0xFF800000#32) = y := by
  rw [ofBits_ninf_f32]; exact max_bot_right y

/-- The f32 word `0x00000000` is `0`. -/
theorem ofBits_zero_f32 : Ideal.ofBits .f32 0x00000000#32 = 0 := Ideal.ofBits_zero_f32

end RowMax
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.PaySoftmax.lean ====
/-
  The body's softmax stage read at an index.  For a `[256, 4096]` matrix of (masked) scores, row `p` is
  normalised on its own: its maximum is taken over the 4096 columns from `-∞`, kept as a column and spread
  back along the row; the shifted scores are exponentiated; their sum over the row, again kept as a column
  and spread back, divides them.  Entry `(p, c)` is the softmax of row `p` at column `c`.
-/
import proofs.«112082_j3281355014500_2_alg».proof.Proof.Gen.KernelIdeal.Skeleton
import proofs.«112082_j3281355014500_2_alg».proof.Proof.Spec
import proofs.«112082_j3281355014500_2_alg».proof.Proof.LibRowMax
import proofs.«112082_j3281355014500_2_alg».proof.Proof.LibLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The rows' maxima. -/
def rowmaxK (s : FVec Ideal S256x4096 .f32) : FVec Ideal S256 .f32 :=
  multiReduction .maximumf [1] S256 s 0xFF800000#32 reduces_S256x4096_S256 (.inl rfl) rfl

theorem rowmaxK_apply (s : FVec Ideal S256x4096 .f32) (p : Fin 256) :
    rowmaxK s (ix1 p) = Attn.rowMax (fun c' => s (ix2 p c')) := by
  unfold rowmaxK
  refine (Ideal.multiReduction_maximumf_single s 0xFF800000#32 reduces_S256x4096_S256 (.inl rfl) rfl (ix1 p)).trans ?_
  have hf : (s ∘ reduces_S256x4096_S256.lift (ix1 p)) = fun c' : Fin 4096 => s (ix2 p c') :=
    funext fun k => congrArg s (RowMax.lift_ix2 reduces_S256x4096_S256 p k)
  rw [hf]
  simp only [Ideal.ofBits_def, RowMax.ofBits_ninf_f32]
  rfl

/-- The shifted exponentials. -/
def expK (s : FVec Ideal S256x4096 .f32) : FVec Ideal S256x4096 .f32 :=
  exp (subf s (broadcastTo S256x4096 (shapeCast S256x1 (rowmaxK s) shapeCasts_S256_S256x1 : FVec Ideal S256x1 .f32)
    broadcasts_S256x1_S256x4096))

theorem expK_apply (s : FVec Ideal S256x4096 .f32) (p : Fin 256) (c : Fin 4096) :
    expK s (ix2 p c) = Attn.rowExp (fun c' => s (ix2 p c')) c := by
  unfold expK
  show Ideal.exp (s (ix2 p c) - broadcastTo S256x4096 (shapeCast S256x1 (rowmaxK s) shapeCasts_S256_S256x1 : FVec Ideal S256x1 .f32)
    broadcasts_S256x1_S256x4096 (ix2 p c)) = _
  rw [broadcastTo_a1_ab_apply, shapeCast_a_a1_apply, rowmaxK_apply]
  rfl

/-- The rows' normalisers. -/
def rowsumK (s : FVec Ideal S256x4096 .f32) : FVec Ideal S256 .f32 :=
  multiReduction .add [1] S256 (expK s) 0x00000000#32 reduces_S256x4096_S256 (.inl rfl) rfl

theorem rowsumK_apply (s : FVec Ideal S256x4096 .f32) (p : Fin 256) :
    rowsumK s (ix1 p) = Attn.rowSum (fun c' => s (ix2 p c')) := by
  unfold rowsumK
  refine (Ideal.multiReduction_add_single (expK s) 0x00000000#32 reduces_S256x4096_S256 (.inl rfl) rfl (ix1 p)).trans ?_
  unfold Attn.rowSum
  refine Finset.sum_congr rfl fun k _ => ?_
  rw [RowMax.lift_ix2 reduces_S256x4096_S256 p k]
  exact expK_apply s p _

/-- The softmax of every row. -/
def smx (s : FVec Ideal S256x4096 .f32) : FVec Ideal S256x4096 .f32 :=
  divf (expK s) (broadcastTo S256x4096 (shapeCast S256x1 (rowsumK s) shapeCasts_S256_S256x1 : FVec Ideal S256x1 .f32)
    broadcasts_S256x1_S256x4096)

theorem smx_apply (s : FVec Ideal S256x4096 .f32) (p : Fin 256) (c : Fin 4096) :
    smx s (ix2 p c) = Attn.softmax (fun c' => s (ix2 p c')) c := by
  unfold smx
  rw [divf_apply, broadcastTo_a1_ab_apply, shapeCast_a_a1_apply, rowsumK_apply, expK_apply]
  rfl

end Cert.KernelIdeal.PayValue

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Payload.lean ====
/-
  The body's two stored values read at an index, over the blocks it loads: `x0` the `[1, 256, 64]` query
  block, `x1` and `x2` the `[1, 4096, 64]` key and value blocks, `x3` the `[256, 4096]` mask block.

  The weights stored at `(0, p, c)` are the softmax, along row `p`, of the masked scaled scores: a mask word
  equal to 0 selects the fill value, which the certificate's table names `-∞`.  The output stored at
  `(0, p, d)` is the product of the weights with the value block, `∑ c, w (p, c) * x2 (0, c, d)`; the change
  of float format in between is the identity on extended reals.
-/
import proofs.«112082_j3281355014500_2_alg».proof.Proof.PayScores
import proofs.«112082_j3281355014500_2_alg».proof.Proof.PaySoftmax
import proofs.«112082_j3281355014500_2_alg».proof.Proof.LibDotRows
import Idealize.ShloMosaic.PureOps.IdealRules

noncomputable section

open scoped BigOperators

namespace Cert.KernelIdeal.PayValue

open Cert.KernelIdeal Cert.KernelIdeal.Gen Idealize.ShloMosaic Idealize.ShloMosaic.ValueIdx

/-- The fill value is `-∞`: the certificate's table says so. -/
theorem neg_big : Named.named (F := Ideal) Cert.KernelIdeal.κ "neg_big" (φ := .f32) 0xFF333332#32 = (⊥ : EReal) :=
  IdealRules.named_const.ideal_named_scalar _ _ _ _ rfl

/-- The masked scores. -/
def masked (x0 : Vec Ideal S1x256x64 .bf16) (x1 : Vec Ideal S1x4096x64 .bf16) (x3 : Vec Ideal S256x4096 .i32) :
    FVec Ideal S256x4096 .f32 :=
  select (cmpi .eq (shapeCast S256x4096 x3 shapeCasts_S256x4096_S256x4096 : IVec S256x4096 32) (broadcast S256x4096 (0#32 : BitVec 32)))
    (broadcast S256x4096 (Named.named (F := Ideal) Cert.KernelIdeal.κ "neg_big" (φ := .f32) 0xFF333332#32))
    (scores x0 x1)

theorem masked_apply (x0 : Vec Ideal S1x256x64 .bf16) (x1 : Vec Ideal S1x4096x64 .bf16) (x3 : Vec Ideal S256x4096 .i32)
    (p : Fin 256) (c : Fin 4096) :
    masked x0 x1 x3 (ix2 p c)
      = Attn.mscore (fun d => x0 (ix3 (0 : Fin 1) p d)) (fun d => x1 (ix3 (0 : Fin 1) c d)) (x3 (ix2 p c)) := by
  unfold masked
  rw [select_apply, broadcast_apply, scores_apply, neg_big, shapeCast_self]
  rfl

/-- The stored weights are the softmax of the masked scores. -/
theorem pay1_eq (x0 : Vec Ideal S1x256x64 .bf16) (x1 : Vec Ideal S1x4096x64 .bf16) (x3 : Vec Ideal S256x4096 .i32) :
    k0_pay1 (F := Ideal) x0 x1 x3 = smx (masked x0 x1 x3) := rfl

/-- THE WEIGHTS at `(p, c)`. -/
theorem pay1_apply (x0 : Vec Ideal S1x256x64 .bf16) (x1 : Vec Ideal S1x4096x64 .bf16) (x3 : Vec Ideal S256x4096 .i32)
    (p : Fin 256) (c : Fin 4096) :
    k0_pay1 (F := Ideal) x0 x1 x3 (ix2 p c)
      = Attn.softmax (fun c' => Attn.mscore (fun d => x0 (ix3 (0 : Fin 1) p d)) (fun d => x1 (ix3 (0 : Fin 1) c' d))
          (x3 (ix2 p c'))) c := by
  rw [pay1_eq, smx_apply]
  simp only [masked_apply]

/-- The stored weights, with the block's leading unit axis put back. -/
theorem pay2_apply (x0 : Vec Ideal S1x256x64 .bf16) (x1 : Vec Ideal S1x4096x64 .bf16) (x3 : Vec Ideal S256x4096 .i32)
    (u : Fin 1) (p : Fin 256) (c : Fin 4096) :
    k0_pay2 (F := Ideal) x0 x1 x3 (ix3 u p c) = k0_pay1 (F := Ideal) x0 x1 x3 (ix2 p c) := by
  unfold k0_pay2
  exact shapeCast_ab_1ab_apply _ _ u p c

/-- The weights-value product's dimension numbers, coordinate by coordinate. -/
theorem av_l0 (j : S256x64.Idx) (k : dot_S256x4096_S4096x64_S256x64_1_0_0_1_n_n.contr.Idx) :
    (dot_S256x4096_S4096x64_S256x64_1_0_0_1_n_n.lhsIdx j k 0).val = (j 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem av_l1 (j : S256x64.Idx) (k : dot_S256x4096_S4096x64_S256x64_1_0_0_1_n_n.contr.Idx) :
    (dot_S256x4096_S4096x64_S256x64_1_0_0_1_n_n.lhsIdx j k 1).val = (k ⟨0, by decide⟩).val :=
  dot_S256x4096_S4096x64_S256x64_1_0_0_1_n_n.lhsIdx_val_of_single rfl j k
theorem av_r0 (j : S256x64.Idx) (k : dot_S256x4096_S4096x64_S256x64_1_0_0_1_n_n.contr.Idx) :
    (dot_S256x4096_S4096x64_S256x64_1_0_0_1_n_n.rhsIdx j k 0).val = (k ⟨0, by decide⟩).val :=
  dot_S256x4096_S4096x64_S256x64_1_0_0_1_n_n.rhsIdx_val_of_single rfl j k
theorem av_r1 (j : S256x64.Idx) (k : dot_S256x4096_S4096x64_S256x64_1_0_0_1_n_n.contr.Idx) :
    (dot_S256x4096_S4096x64_S256x64_1_0_0_1_n_n.rhsIdx j k 1).val = (j 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- THE OUTPUT at `(0, p, d)`. -/
theorem pay3_apply (x0 : Vec Ideal S1x256x64 .bf16) (x1 x2 : Vec Ideal S1x4096x64 .bf16) (x3 : Vec Ideal S256x4096 .i32)
    (u : Fin 1) (p : Fin 256) (d : Fin 64) :
    k0_pay3 (F := Ideal) x0 x1 x2 x3 (ix3 u p d)
      = ∑ c : Fin 4096, k0_pay1 (F := Ideal) x0 x1 x3 (ix2 p c) * x2 (ix3 (0 : Fin 1) c d) := by
  unfold k0_pay3
  refine (shapeCast_ab_1ab_apply _ _ u p d).trans ?_
  simp only [matmul]
  rw [matmul_zero_rows dot_S256x4096_S4096x64_S256x64_1_0_0_1_n_n none rfl rfl av_l0 av_l1 av_r0 av_r1]
  refine Finset.sum_congr rfl fun c _ => ?_
  rw [truncf_apply, shapeCast_1ab_ab_apply]

end Cert.KernelIdeal.PayValue

end
-- ==== Proof.Blocks.lean ====
/-
  From what each grid point writes back to the two output arrays after the run.

  Grid point `t` = (query tile `qi`, merged batch-and-head `bh`) reads the query block at `(bh, qi, 0)`, the
  whole key and value matrices of `bh`, and the mask rows of tile `qi`; it writes back block `(bh, qi, 0)` of
  the weights and of the output.  A block's coordinate is always block index × block size + the coordinate
  inside the block, so row `p` of the block is row `qi * 256 + p` of the array, and what the point writes back
  is that block of ONE function of the arrays the region finds: the attention weights, resp. the attention
  output, of the specification with batch and head merged.  The 16 × 16 blocks tile both output arrays (the
  point covering row `r` of `bh` is `(r / 256, bh)`), so after the run each array IS that function.
-/
import proofs.«112082_j3281355014500_2_alg».proof.Proof.Gen.KernelIdeal.Frame
import proofs.«112082_j3281355014500_2_alg».proof.Proof.Payload
import Idealize.ShloMosaic.Lib.Pipeline.Value

set_option maxRecDepth 16384

noncomputable section

open scoped BigOperators

namespace Cert.KernelIdeal.BlockValue

open Cert.KernelIdeal Cert.KernelIdeal.Gen Cert.KernelIdeal.PayValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-! ## One point's two stored values as blocks of the specification -/

/-- The weights a point stores, at `y` inside the block, are the specification's at the array index `i` the
    block puts `y` at — given that the loaded blocks hold the arrays' entries of `i`'s batch-and-head and row. -/
theorem weights_at (Q K : S16x4096x64.Idx → EReal) (M : S4096x4096.Idx → BitVec 32)
    (x0 : Vec Ideal S1x256x64 .bf16) (x1 : Vec Ideal S1x4096x64 .bf16) (x3 : Vec Ideal S256x4096 .i32)
    (y : S1x256x4096.Idx) (i : S16x4096x4096.Idx)
    (h0 : ∀ d : Fin 64, x0 (ix3 (0 : Fin 1) (y 1) d) = Q (ix3 (i 0) (i 1) d))
    (h1 : ∀ (c' : Fin 4096) (d : Fin 64), x1 (ix3 (0 : Fin 1) c' d) = K (ix3 (i 0) c' d))
    (h3 : ∀ c' : Fin 4096, x3 (ix2 (y 1) c') = M (ix2 (i 1) c'))
    (h2 : (i 2).val = (y 2).val) :
    k0_pay2 (F := Ideal) x0 x1 x3 y = Attn.attn3 Q K M i := by
  obtain ⟨u, p, cc, rfl⟩ : ∃ (u : Fin 1) (p : Fin 256) (cc : Fin 4096), y = ix3 u p cc := ⟨y 0, y 1, y 2, eq_ix3 y⟩
  have h0' : ∀ d : Fin 64, x0 (ix3 (0 : Fin 1) p d) = Q (ix3 (i 0) (i 1) d) := h0
  have h3' : ∀ c' : Fin 4096, x3 (ix2 p c') = M (ix2 (i 1) c') := h3
  have h2' : (i 2).val = cc.val := h2
  rw [pay2_apply, pay1_apply]
  unfold Attn.attn3
  simp only [h0', h1, h3']
  exact congrArg _ (Fin.ext h2'.symm)

/-- The output a point stores, likewise. -/
theorem output_at (Q K V : S16x4096x64.Idx → EReal) (M : S4096x4096.Idx → BitVec 32)
    (x0 : Vec Ideal S1x256x64 .bf16) (x1 x2 : Vec Ideal S1x4096x64 .bf16) (x3 : Vec Ideal S256x4096 .i32)
    (y : S1x256x64.Idx) (i : S16x4096x64.Idx)
    (h0 : ∀ d : Fin 64, x0 (ix3 (0 : Fin 1) (y 1) d) = Q (ix3 (i 0) (i 1) d))
    (h1 : ∀ (c' : Fin 4096) (d : Fin 64), x1 (ix3 (0 : Fin 1) c' d) = K (ix3 (i 0) c' d))
    (h2 : ∀ (c' : Fin 4096) (d : Fin 64), x2 (ix3 (0 : Fin 1) c' d) = V (ix3 (i 0) c' d))
    (h3 : ∀ c' : Fin 4096, x3 (ix2 (y 1) c') = M (ix2 (i 1) c'))
    (hd : (i 2).val = (y 2).val) :
    k0_pay3 (F := Ideal) x0 x1 x2 x3 y = Attn.out3 Q K V M i := by
  obtain ⟨u, p, dd, rfl⟩ : ∃ (u : Fin 1) (p : Fin 256) (dd : Fin 64), y = ix3 u p dd := ⟨y 0, y 1, y 2, eq_ix3 y⟩
  have h0' : ∀ d : Fin 64, x0 (ix3 (0 : Fin 1) p d) = Q (ix3 (i 0) (i 1) d) := h0
  have h3' : ∀ c' : Fin 4096, x3 (ix2 p c') = M (ix2 (i 1) c') := h3
  have hd' : (i 2).val = dd.val := hd
  rw [pay3_apply]
  unfold Attn.out3
  refine Finset.sum_congr rfl fun c' _ => ?_
  rw [pay1_apply, h2]
  unfold Attn.attn3
  simp only [h0', h1, h3']
  have e : dd = i 2 := Fin.ext hd'.symm
  exact congrArg _ (congrArg V (congrArg (fun z : Fin 64 => (ix3 (i 0) c' z : S16x4096x64.Idx)) e))

/-! ## The index maps, decided over the 256 points -/

/-- Every window's block index in terms of the weights window's: the query and output blocks sit where the
    weights block does, the key and value blocks are the whole matrices of the same batch-and-head, the mask
    block is the rows of the same query tile. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = win0_5.index t (1 : Fin 3) ∧ win0_3.index t (1 : Fin 2) = 0
    ∧ win0_4.index t (0 : Fin 3) = win0_5.index t (0 : Fin 3) ∧ win0_4.index t (1 : Fin 3) = win0_5.index t (1 : Fin 3)
    ∧ win0_4.index t (2 : Fin 3) = 0
    ∧ win0_5.index t (2 : Fin 3) = 0 ∧ win0_5.index t (0 : Fin 3) < 16 ∧ win0_5.index t (1 : Fin 3) < 16 :=
  (by decide +kernel : ∀ t : Fin grid0.N, _)

/-- Every block `(bh, qi, 0)` is some point's: the point `qi * 16 + bh`. -/
theorem idx_at : ∀ (q0 q1 : Fin 16),
    win0_5.index (Fin.cast N_0.symm (⟨q1.val * 16 + q0.val, by omega⟩ : Fin 256)) = ![q0.val, q1.val, 0]
    ∧ win0_4.index (Fin.cast N_0.symm (⟨q1.val * 16 + q0.val, by omega⟩ : Fin 256)) = ![q0.val, q1.val, 0] :=
  by decide +kernel

/-! ## The weights (window 5) -/

/-- WHAT POINT `t` WRITES BACK to the weights array is block `t` of the specification's weights. -/
theorem flushed5_eq (c : Dev nD) (t : Fin cfg0.N) :
    (dats m 0 c).flushed 5 t
      = ((cfg0.win 5).blk t).view.read (Elt Ideal) (Attn.attn3 (V m c main_v1) (V m c main_v3) (V m c main_v6)) := by
  show (cfg0.win 5).cut (grid0.coords t) ((dats m 0 c).after 5 t) = _
  rw [after0_5]
  unfold out0_5
  rw [View.canon_unit_zero hz3]
  simp only [View.ld_unit_zero (S := S1x256x64) hz3, View.ld_unit_zero (S := S1x4096x64) hz3, View.ld_unit_zero (S := S256x4096) hz2]
  obtain ⟨e00, e01, e02, e10, e11, e12, e20, e21, e22, e30, e31, e40, e41, e42, e52, b50, b51⟩ := idx_facts t
  funext y
  show k0_pay2 (F := Ideal) (iblk m c 0 t) (iblk m c 1 t) (iblk m c 3 t) y
    = Attn.attn3 (V m c main_v1) (V m c main_v3) (V m c main_v6) (((cfg0.win 5).blk t).view.emb y)
  have hy0 : (y 0).val < 1 := (y 0).isLt
  refine weights_at (V m c main_v1) (V m c main_v3) (V m c main_v6) (iblk m c 0 t) (iblk m c 1 t) (iblk m c 3 t) y
    (((cfg0.win 5).blk t).view.emb y) ?_ ?_ ?_ ?_
  · intro d
    show V m c main_v1 (((cfg0.win 0).blk t).view.emb (ix3 (0 : Fin 1) (y 1) d)) = V m c main_v1 _
    refine congrArg (V m c main_v1) (funext fun a => Fin.ext ?_)
    match a with
    | ⟨0, _⟩ => show win0_0.index t (0 : Fin 3) * 1 + 1 * 0 = win0_5.index t (0 : Fin 3) * 1 + 1 * (y 0).val; omega
    | ⟨1, _⟩ => show win0_0.index t (1 : Fin 3) * 256 + 1 * (y 1).val = win0_5.index t (1 : Fin 3) * 256 + 1 * (y 1).val; omega
    | ⟨2, _⟩ => show win0_0.index t (2 : Fin 3) * 64 + 1 * d.val = d.val; omega
  · intro c' d
    show V m c main_v3 (((cfg0.win 1).blk t).view.emb (ix3 (0 : Fin 1) c' d)) = V m c main_v3 _
    refine congrArg (V m c main_v3) (funext fun a => Fin.ext ?_)
    match a with
    | ⟨0, _⟩ => show win0_1.index t (0 : Fin 3) * 1 + 1 * 0 = win0_5.index t (0 : Fin 3) * 1 + 1 * (y 0).val; omega
    | ⟨1, _⟩ => show win0_1.index t (1 : Fin 3) * 4096 + 1 * c'.val = c'.val; omega
    | ⟨2, _⟩ => show win0_1.index t (2 : Fin 3) * 64 + 1 * d.val = d.val; omega
  · intro c'
    show V m c main_v6 (((cfg0.win 3).blk t).view.emb (ix2 (y 1) c')) = V m c main_v6 _
    refine congrArg (V m c main_v6) (funext fun a => Fin.ext ?_)
    match a with
    | ⟨0, _⟩ => show win0_3.index t (0 : Fin 2) * 256 + 1 * (y 1).val = win0_5.index t (1 : Fin 3) * 256 + 1 * (y 1).val; omega
    | ⟨1, _⟩ => show win0_3.index t (1 : Fin 2) * 4096 + 1 * c'.val = c'.val; omega
  · show win0_5.index t (2 : Fin 3) * 4096 + 1 * (y 2).val = (y 2).val; omega

/-- An index of the weights array is in point `t`'s block iff each coordinate is in the block's range. -/
theorem mem_blk5 (t : Fin cfg0.N) (i : S16x4096x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v7_1).slice (win0_5.rect t)).set ↔ _
  rw [View.set_slice_whole, Rect.mem_set_unit]
  exact Iff.rfl

/-- Every index of the weights array is in some point's block. -/
theorem cover5 (i : S16x4096x4096.Idx) :
    ∃ t : Fin cfg0.N, (cfg0.win 5).flush t = true ∧ i ∈ ((cfg0.win 5).blk t).view.set := by
  have hi0 : (i 0).val < 16 := (i 0).isLt
  have hi1 : (i 1).val < 4096 := (i 1).isLt
  have hi2 : (i 2).val < 4096 := (i 2).isLt
  have ht := (idx_at ⟨(i 0).val, hi0⟩ ⟨(i 1).val / 256, by omega⟩).1
  generalize (Fin.cast N_0.symm (⟨(⟨(i 1).val / 256, _⟩ : Fin 16).val * 16 + (⟨(i 0).val, hi0⟩ : Fin 16).val, _⟩ : Fin 256)) = t at ht
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

/-- THE WEIGHTS ARRAY after the run. -/
theorem final5 (c : Dev nD) :
    (dats m 0 c).arrAt 5 cfg0.N = Attn.attn3 (V m c main_v1) (V m c main_v3) (V m c main_v6) :=
  (dats m 0 c).arrAt_eq_of_cover 5 _ (fun t _ => flushed5_eq m c t) cover5

/-! ## The output (window 4) -/

/-- WHAT POINT `t` WRITES BACK to the output array is block `t` of the specification's output. -/
theorem flushed4_eq (c : Dev nD) (t : Fin cfg0.N) :
    (dats m 0 c).flushed 4 t
      = ((cfg0.win 4).blk t).view.read (Elt Ideal)
          (Attn.out3 (V m c main_v1) (V m c main_v3) (V m c main_v5) (V m c main_v6)) := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x4096x64) hz3, View.ld_unit_zero (S := S256x4096) hz2]
  obtain ⟨e00, e01, e02, e10, e11, e12, e20, e21, e22, e30, e31, e40, e41, e42, e52, b50, b51⟩ := idx_facts t
  funext y
  show k0_pay3 (F := Ideal) (iblk m c 0 t) (iblk m c 1 t) (iblk m c 2 t) (iblk m c 3 t) y
    = Attn.out3 (V m c main_v1) (V m c main_v3) (V m c main_v5) (V m c main_v6) (((cfg0.win 4).blk t).view.emb y)
  have hy0 : (y 0).val < 1 := (y 0).isLt
  refine output_at (V m c main_v1) (V m c main_v3) (V m c main_v5) (V m c main_v6) (iblk m c 0 t) (iblk m c 1 t)
    (iblk m c 2 t) (iblk m c 3 t) y (((cfg0.win 4).blk t).view.emb y) ?_ ?_ ?_ ?_ ?_
  · intro d
    show V m c main_v1 (((cfg0.win 0).blk t).view.emb (ix3 (0 : Fin 1) (y 1) d)) = V m c main_v1 _
    refine congrArg (V m c main_v1) (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 256 + 1 * (y 1).val = win0_4.index t (1 : Fin 3) * 256 + 1 * (y 1).val; omega
    | ⟨2, _⟩ => show win0_0.index t (2 : Fin 3) * 64 + 1 * d.val = d.val; omega
  · intro c' d
    show V m c main_v3 (((cfg0.win 1).blk t).view.emb (ix3 (0 : Fin 1) c' d)) = V m c main_v3 _
    refine congrArg (V m c main_v3) (funext fun a => Fin.ext ?_)
    match a with
    | ⟨0, _⟩ => show win0_1.index t (0 : Fin 3) * 1 + 1 * 0 = win0_4.index t (0 : Fin 3) * 1 + 1 * (y 0).val; omega
    | ⟨1, _⟩ => show win0_1.index t (1 : Fin 3) * 4096 + 1 * c'.val = c'.val; omega
    | ⟨2, _⟩ => show win0_1.index t (2 : Fin 3) * 64 + 1 * d.val = d.val; omega
  · intro c' d
    show V m c main_v5 (((cfg0.win 2).blk t).view.emb (ix3 (0 : Fin 1) c' d)) = V m c main_v5 _
    refine congrArg (V m c main_v5) (funext fun a => Fin.ext ?_)
    match a with
    | ⟨0, _⟩ => show win0_2.index t (0 : Fin 3) * 1 + 1 * 0 = win0_4.index t (0 : Fin 3) * 1 + 1 * (y 0).val; omega
    | ⟨1, _⟩ => show win0_2.index t (1 : Fin 3) * 4096 + 1 * c'.val = c'.val; omega
    | ⟨2, _⟩ => show win0_2.index t (2 : Fin 3) * 64 + 1 * d.val = d.val; omega
  · intro c'
    show V m c main_v6 (((cfg0.win 3).blk t).view.emb (ix2 (y 1) c')) = V m c main_v6 _
    refine congrArg (V m c main_v6) (funext fun a => Fin.ext ?_)
    match a with
    | ⟨0, _⟩ => show win0_3.index t (0 : Fin 2) * 256 + 1 * (y 1).val = win0_4.index t (1 : Fin 3) * 256 + 1 * (y 1).val; omega
    | ⟨1, _⟩ => show win0_3.index t (1 : Fin 2) * 4096 + 1 * c'.val = c'.val; omega
  · show win0_4.index t (2 : Fin 3) * 64 + 1 * (y 2).val = (y 2).val; omega

/-- An index of the output array is in point `t`'s block iff each coordinate is in the block's range. -/
theorem mem_blk4 (t : Fin cfg0.N) (i : S16x4096x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v7_0).slice (win0_4.rect t)).set ↔ _
  rw [View.set_slice_whole, Rect.mem_set_unit]
  exact Iff.rfl

/-- Every index of the output array is in some point's block. -/
theorem cover4 (i : S16x4096x64.Idx) :
    ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 64 := (i 2).isLt
  have ht := (idx_at ⟨(i 0).val, hi0⟩ ⟨(i 1).val / 256, by omega⟩).2
  generalize (Fin.cast N_0.symm (⟨(⟨(i 1).val / 256, _⟩ : Fin 16).val * 16 + (⟨(i 0).val, hi0⟩ : Fin 16).val, _⟩ : Fin 256)) = t at ht
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-- THE OUTPUT ARRAY after the run. -/
theorem final4 (c : Dev nD) :
    (dats m 0 c).arrAt 4 cfg0.N = Attn.out3 (V m c main_v1) (V m c main_v3) (V m c main_v5) (V m c main_v6) :=
  (dats m 0 c).arrAt_eq_of_cover 4 _ (fun t _ => flushed4_eq m c t) cover4

end Cert.KernelIdeal.BlockValue

end
-- ==== Proof.LibMergeAxes.lean ====
/-
  Reshapes that merge or split two LEADING axes, read at an index written by coordinates, for any element
  type and any extents.  A `[p, q, n, m]` array and the `[P, n, m]` array with the same row-major order
  (`P = p * q`) hold the same element at `(b, h, r, d)` and at `(b * q + h, r, d)`; and a `[1, 1, a, b]`
  array cast to `[a, b]` holds at `(i, j)` what the operand holds at `(0, 0, i, j)`.  Each is the
  library's read-at-an-index lemma for a shape cast with the row-major arithmetic done.
-/
import Idealize.ShloMosaic.Lib.Pipeline.Value
import Idealize.ShloMosaic.Lib.ValueIdx

namespace Idealize.ShloMosaic.ValueIdx

open Idealize.ShloMosaic

variable {α : Type}

/-- A `[p, q, n, m]` array cast to `[P, n, m]` reads, at `(bh, r, d)` with `bh = b * q + h`, the operand at
    `(b, h, r, d)`. -/
theorem shapeCast_merge2_apply {p q P n m : ℕ} (x : (⟨4, ![p, q, n, m]⟩ : Shape).Idx → α)
    (hc : (⟨4, ![p, q, n, m]⟩ : Shape).ShapeCasts ⟨3, ![P, n, m]⟩)
    (b : Fin p) (h : Fin q) (bh : Fin P) (r : Fin n) (d : Fin m) (hbh : bh.val = b.val * q + h.val) :
    shapeCast ⟨3, ![P, n, m]⟩ x hc (ix3 bh r d) = x (ix4 b h r d) :=
  shapeCast_apply x hc _ _ (by
    rw [Shape.rowMajor_val_four, Shape.rowMajor_val_three]
    show ((b.val * q + h.val) * n + r.val) * m + d.val = (bh.val * n + r.val) * m + d.val
    rw [hbh])

/-- A `[P, n, m]` array cast to `[p, q, n, m]` reads, at `(b, h, r, d)`, the operand at `(bh, r, d)` with
    `bh = b * q + h`. -/
theorem shapeCast_split2_apply {p q P n m : ℕ} (y : (⟨3, ![P, n, m]⟩ : Shape).Idx → α)
    (hc : (⟨3, ![P, n, m]⟩ : Shape).ShapeCasts ⟨4, ![p, q, n, m]⟩)
    (b : Fin p) (h : Fin q) (bh : Fin P) (r : Fin n) (d : Fin m) (hbh : bh.val = b.val * q + h.val) :
    shapeCast ⟨4, ![p, q, n, m]⟩ y hc (ix4 b h r d) = y (ix3 bh r d) :=
  shapeCast_apply y hc _ _ (by
    rw [Shape.rowMajor_val_four, Shape.rowMajor_val_three]
    show (bh.val * n + r.val) * m + d.val = ((b.val * q + h.val) * n + r.val) * m + d.val
    rw [hbh])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (hc : (⟨4, ![1, 1, a, b]⟩ : Shape).ShapeCasts ⟨2, ![a, b]⟩) (i : Fin a) (j : Fin b) :
    shapeCast ⟨2, ![a, b]⟩ x hc (ix2 i j) = x (ix4 (0 : Fin 1) (0 : Fin 1) i j) :=
  shapeCast_apply x hc _ _ (by
    rw [Shape.rowMajor_val_four, Shape.rowMajor_val_two]
    show ((0 * 1 + 0) * a + i.val) * b + j.val = i.val * b + j.val
    simp only [Nat.zero_mul, Nat.zero_add])

end Idealize.ShloMosaic.ValueIdx
-- ==== Proof.KernelValue.lean ====
/-
  The idealized kernel's two results as the specification's functions of the argument arrays.

  Before the region the host merges batch and head of the three float arguments (a reshape; the change of
  float format that follows is the identity) and drops the mask's two unit axes, so the arrays the region
  finds are the arguments read at `(b, h) ↦ 8 b + h`.  The region leaves the merged weights and output of the
  specification in its two output arrays.  After the region the host splits batch and head again.  Read at
  `(b, h, r, ·)`, each result is therefore the specification's weights, resp. output, over the arguments.
-/
import proofs.«112082_j3281355014500_2_alg».proof.Proof.Blocks
import proofs.«112082_j3281355014500_2_alg».proof.Proof.LibMergeAxes
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arrays the region finds -/

theorem V_v1 (c : Dev nD) : (V m c main_v1 : S16x4096x64.Idx → EReal)
    = truncf .bf16 (shapeCast S16x4096x64 (m ((c : Thread nD τ).loc main_arg0)) shapeCasts_S2x8x4096x64_S16x4096x64 : FVec Ideal S16x4096x64 .f32) bitsLt_bf16_f32 := by
  show StableHlo.after hostOps0 (fun b => m (c, b)) (Proc.devRef .tc main_v1) = _
  after_results
  rfl

theorem V_v3 (c : Dev nD) : (V m c main_v3 : S16x4096x64.Idx → EReal)
    = truncf .bf16 (shapeCast S16x4096x64 (m ((c : Thread nD τ).loc main_arg1)) shapeCasts_S2x8x4096x64_S16x4096x64 : FVec Ideal S16x4096x64 .f32) bitsLt_bf16_f32 := by
  show StableHlo.after hostOps0 (fun b => m (c, b)) (Proc.devRef .tc main_v3) = _
  after_results
  rfl

theorem V_v5 (c : Dev nD) : (V m c main_v5 : S16x4096x64.Idx → EReal)
    = truncf .bf16 (shapeCast S16x4096x64 (m ((c : Thread nD τ).loc main_arg2)) shapeCasts_S2x8x4096x64_S16x4096x64 : FVec Ideal S16x4096x64 .f32) bitsLt_bf16_f32 := by
  show StableHlo.after hostOps0 (fun b => m (c, b)) (Proc.devRef .tc main_v5) = _
  after_results
  rfl

theorem V_v6 (c : Dev nD) : (V m c main_v6 : S4096x4096.Idx → BitVec 32)
    = shapeCast S4096x4096 (m ((c : Thread nD τ).loc main_arg3)) shapeCasts_S1x1x4096x4096_S4096x4096 := by
  show StableHlo.after hostOps0 (fun b => m (c, b)) (Proc.devRef .tc main_v6) = _
  after_results
  rfl

/-- The merged query array at `(8 b + h, r, d)` is the query argument at `(b, h, r, d)`. -/
theorem V_v1_at (c : Dev nD) (b : Fin 2) (h : Fin 8) (r : Fin 4096) (d : Fin 64) :
    (V m c main_v1 : S16x4096x64.Idx → EReal) (ix3 (Attn.bhOf b h) r d)
      = (m ((c : Thread nD τ).loc main_arg0) : S2x8x4096x64.Idx → EReal) (ix4 b h r d) :=
  ((congrFun (V_v1 m c) (ix3 (Attn.bhOf b h) r d)).trans (truncf_apply _ _ _)).trans
    (shapeCast_merge2_apply _ _ b h (Attn.bhOf b h) r d rfl)

/-- The merged key array likewise. -/
theorem V_v3_at (c : Dev nD) (b : Fin 2) (h : Fin 8) (r : Fin 4096) (d : Fin 64) :
    (V m c main_v3 : S16x4096x64.Idx → EReal) (ix3 (Attn.bhOf b h) r d)
      = (m ((c : Thread nD τ).loc main_arg1) : S2x8x4096x64.Idx → EReal) (ix4 b h r d) :=
  ((congrFun (V_v3 m c) (ix3 (Attn.bhOf b h) r d)).trans (truncf_apply _ _ _)).trans
    (shapeCast_merge2_apply _ _ b h (Attn.bhOf b h) r d rfl)

/-- The merged value array likewise. -/
theorem V_v5_at (c : Dev nD) (b : Fin 2) (h : Fin 8) (r : Fin 4096) (d : Fin 64) :
    (V m c main_v5 : S16x4096x64.Idx → EReal) (ix3 (Attn.bhOf b h) r d)
      = (m ((c : Thread nD τ).loc main_arg2) : S2x8x4096x64.Idx → EReal) (ix4 b h r d) :=
  ((congrFun (V_v5 m c) (ix3 (Attn.bhOf b h) r d)).trans (truncf_apply _ _ _)).trans
    (shapeCast_merge2_apply _ _ b h (Attn.bhOf b h) r d rfl)

/-- The mask matrix at `(r, c)` is the mask argument at `(0, 0, r, c)`. -/
theorem V_v6_at (c : Dev nD) (r cc : Fin 4096) :
    (V m c main_v6 : S4096x4096.Idx → BitVec 32) (ix2 r cc)
      = (m ((c : Thread nD τ).loc main_arg3) : S1x1x4096x4096.Idx → BitVec 32) (ix4 (0 : Fin 1) (0 : Fin 1) r cc) :=
  (congrFun (V_v6 m c) (ix2 r cc)).trans (shapeCast_11ab_ab_apply _ _ r cc)

/-! ## The host lines after the region -/

/-- The second result is the weights array with batch and head split. -/
theorem tail_v9 (c : Dev nD) : Pipeline.afterTail₀ cfgs (dats m) 0 (V0 m) [hostOps1] c main_v9
    = shapeCast S2x8x4096x4096 ((dats m 0 c).arrAt 5 cfg0.N) shapeCasts_S16x4096x4096_S2x8x4096x4096 := by
  unfold Pipeline.afterTail₀
  show StableHlo.after hostOps1 _ (Proc.devRef .tc main_v9) = _
  after_results
  have e := Pipeline.withArrays_arr spec0 launch0.win.arr_inj c (V0 m c) (fun w => (dats m 0 c).arrAt w cfg0.N) 5
  funext i
  exact congrArg (fun A : S16x4096x4096.Idx → EReal => shapeCast S2x8x4096x4096 A shapeCasts_S16x4096x4096_S2x8x4096x4096 i) e

/-- The first result is the output array with batch and head split. -/
theorem tail_v8 (c : Dev nD) : Pipeline.afterTail₀ cfgs (dats m) 0 (V0 m) [hostOps1] c main_v8
    = shapeCast S2x8x4096x64 ((dats m 0 c).arrAt 4 cfg0.N) shapeCasts_S16x4096x64_S2x8x4096x64 := by
  unfold Pipeline.afterTail₀
  show StableHlo.after hostOps1 _ (Proc.devRef .tc main_v8) = _
  after_results
  have e := Pipeline.withArrays_arr spec0 launch0.win.arr_inj c (V0 m c) (fun w => (dats m 0 c).arrAt w cfg0.N) 4
  funext i
  exact congrArg (fun A : S16x4096x64.Idx → EReal => shapeCast S2x8x4096x64 A shapeCasts_S16x4096x64_S2x8x4096x64 i) e

/-! ## The results -/

/-- THE WEIGHTS RESULT over the arguments. -/
theorem result_v9 (c : Dev nD) : Pipeline.afterTail₀ cfgs (dats m) 0 (V0 m) [hostOps1] c main_v9
    = Attn.attn (m ((c : Thread nD τ).loc main_arg0)) (m ((c : Thread nD τ).loc main_arg1)) (m ((c : Thread nD τ).loc main_arg3)) := by
  rw [tail_v9, BlockValue.final5]
  funext i
  obtain ⟨b, h, r, cc, rfl⟩ : ∃ b h r cc, i = ix4 b h r cc := ⟨i 0, i 1, i 2, i 3, eq_ix4 i⟩
  refine (shapeCast_split2_apply _ _ b h (Attn.bhOf b h) r cc rfl).trans ?_
  exact Attn.attn3_merge _ _ _ _ _ _ (V_v1_at m c) (V_v3_at m c) (V_v6_at m c) b h r cc

/-- THE OUTPUT RESULT over the arguments. -/
theorem result_v8 (c : Dev nD) : Pipeline.afterTail₀ cfgs (dats m) 0 (V0 m) [hostOps1] c main_v8
    = Attn.out (m ((c : Thread nD τ).loc main_arg0)) (m ((c : Thread nD τ).loc main_arg1)) (m ((c : Thread nD τ).loc main_arg2))
        (m ((c : Thread nD τ).loc main_arg3)) := by
  rw [tail_v8, BlockValue.final4]
  funext i
  obtain ⟨b, h, r, d, rfl⟩ : ∃ b h r d, i = ix4 b h r d := ⟨i 0, i 1, i 2, i 3, eq_ix4 i⟩
  refine (shapeCast_split2_apply _ _ b h (Attn.bhOf b h) r d rfl).trans ?_
  exact Attn.out3_merge _ _ _ _ _ _ _ _ (V_v1_at m c) (V_v3_at m c) (V_v5_at m c) (V_v6_at m c) b h r d

/-! ## The run -/

/-- Every weakly fair execution of the idealized kernel terminates with the two results at the specification's
    output and weights of the argument arrays, and the arguments unchanged. -/
theorem run : θ_run defs (onTc (τ := τ) (main (F := Ideal))) ⟨m, fun _ => 0, ρ⟩ fun r => ∀ c : Dev nD,
      r.2.mem ((c.tc : Thread nD τ).loc main_v8)
        = Attn.out (m ((c : Thread nD τ).loc main_arg0)) (m ((c : Thread nD τ).loc main_arg1)) (m ((c : Thread nD τ).loc main_arg2))
            (m ((c : Thread nD τ).loc main_arg3))
      ∧ r.2.mem ((c.tc : Thread nD τ).loc main_v9)
        = Attn.attn (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (result_v8 m c),
      ((h c).2 main_v9 (Pipeline.mem_restRefs_of main_v9 (by decide) (by decide))).trans (result_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.LibRowMax4.lean ====
import Idealize.ShloMosaic.Lib.ValueIdx
import Idealize.ShloMosaic.PureOps.Ideal.Laws

/-!
  A MAXIMUM OVER THE LAST AXIS OF A RANK-4 ARRAY AS A FOLD.

  The host's reduction with a maximum body over the LAST axis of `x : [A, B, C, J]` is, at the ideal values and
  at `(a, b, r)`, the fold of `max` from the initial value over the entries `x (a, b, r, c')`, `c' < J`.  The
  maximum is commutative and associative, so the order in which the host visits the axis does not matter.
-/

open Idealize.ShloMosaic Idealize.ShloMosaic.ValueIdx

namespace RowMax4

variable {A B C J : Nat}

/-- Dropping the last axis of `[A, B, C, J]` leaves `[A, B, C]`, a shape with an axis: the host's shape fact gives
    the vector reduction's. -/
theorem reduces_of_reducesTo (h' : (⟨4, ![A, B, C, J]⟩ : Shape).ReducesTo [3] (⟨3, ![A, B, C]⟩ : Shape)) :
    (⟨4, ![A, B, C, J]⟩ : Shape).Reduces [3] (⟨3, ![A, B, C]⟩ : Shape) :=
  ⟨h'.1, Nat.succ_pos 2, h'.2⟩

/-- `(a, b, r)` with the last coordinate `k` put back is `(a, b, r, k)`. -/
theorem lift_ix4 (h : (⟨4, ![A, B, C, J]⟩ : Shape).Reduces [3] (⟨3, ![A, B, C]⟩ : Shape)) (a : Fin A) (b : Fin B) (r : Fin C)
    (k : Fin ((⟨4, ![A, B, C, J]⟩ : Shape).size 3)) :
    h.lift (ix3 a b r) k = ix4 a b r (⟨k.val, k.isLt⟩ : Fin J) := by
  funext c; apply Fin.ext
  fin_cases c <;> rfl

/-- THE MAXIMUM AT `(a, b, r)`: the fold of `max` from the initial value's element over the last axis. -/
theorem hostReduce_maximumf_last {φ : FTy} {u : Shape} (x : FVec Ideal ⟨4, ![A, B, C, J]⟩ φ) (init : u.Idx → Ideal φ)
    (h' : (⟨4, ![A, B, C, J]⟩ : Shape).ReducesTo [3] (⟨3, ![A, B, C]⟩ : Shape)) (hu : 0 < u.numel)
    (a : Fin A) (b : Fin B) (r : Fin C) :
    Host.reduce FloatOps.maximumf x init h' hu (ix3 a b r)
      = (Finset.univ : Finset (Fin J)).fold max (init (Shape.Idx.first hu)) (fun c' => x (ix4 a b r c')) := by
  have h := reduces_of_reducesTo h'
  rw [Host.reduce_eq_fold_single FloatOps.maximumf x init h' h hu]
  have hf : (x ∘ h.lift (ix3 a b r)) = fun c' : Fin J => x (ix4 a b r c') :=
    funext fun k => congrArg x (lift_ix4 h a b r k)
  exact congrArg (fun f => Finset.fold max (init (Shape.Idx.first hu)) f (Finset.univ : Finset (Fin J))) hf

end RowMax4
-- ==== Proof.RefValue.lean ====
/-
  The reference's two results are the attention weights and the attention output of the specification.

  Stage by stage, at an index `(b, h, r, c)`: the selected score is the masked scaled score (the host's
  quotient by 8 is the product with 1/8, and the `-∞` word it fills with is the least extended real); the
  row's maximum, taken once more against `-∞`, is the fold of `max` from `-∞`; the exponential of the shifted
  score, its sum over the row started from `0`, and their quotient are the row's softmax; and the second
  product is the sum over the key index of weight times value.
-/
import proofs.«112082_j3281355014500_2_alg».proof.Proof.Gen.ReferenceIdeal.Read
import proofs.«112082_j3281355014500_2_alg».proof.Proof.Spec
import proofs.«112082_j3281355014500_2_alg».proof.Proof.LibRowMax
import proofs.«112082_j3281355014500_2_alg».proof.Proof.LibRowMax4

noncomputable section

open scoped BigOperators

namespace Cert.ReferenceIdeal.RefValue

open Cert.ReferenceIdeal Cert.ReferenceIdeal.Read Idealize.ShloMosaic Idealize.ShloMosaic.ValueIdx

/-- A float argument array and the mask array, at the ideal values. -/
abbrev FArr := (⟨S2x8x4096x64, .f32⟩ : BufTy).Contents (Elt Ideal)
abbrev MArr := (⟨S1x1x4096x4096, .i32⟩ : BufTy).Contents (Elt Ideal)

/-- The selected score is the masked scaled score. -/
theorem v5_apply (x0 x1 : FArr) (x3 : MArr) (b : Fin 2) (h : Fin 8) (r c : Fin 4096) :
    val_main_v5 (F := Ideal) x0 x1 x3 (ix4 b h r c)
      = Attn.mscore (fun d => x0 (ix4 b h r d)) (fun d => x1 (ix4 b h c d)) (x3 (ix4 (0 : Fin 1) (0 : Fin 1) r c)) := by
  rw [val_main_v5_apply, val_main_call0_v1_apply, val_main_v4_apply, val_main_v3_apply, val_main_c_apply,
    val_main_call0_v2_apply, val_main_call0_v0_apply, val_main_cst_0_apply, val_main_v2_apply, val_main_v0_apply,
    val_main_v1_apply, val_main_cst_apply]
  have e1 : idx_main_call0_v1 (ix4 b h r c) = ix4 (0 : Fin 1) (0 : Fin 1) r c :=
    funext fun a => Fin.ext (by match a with | ⟨0, _⟩ => rfl | ⟨1, _⟩ => rfl | ⟨2, _⟩ => rfl | ⟨3, _⟩ => rfl)
  have el : ∀ k, lidx_main_v0 (ix4 b h r c) k = ix4 b h r k := fun k =>
    funext fun a => Fin.ext (by match a with | ⟨0, _⟩ => rfl | ⟨1, _⟩ => rfl | ⟨2, _⟩ => rfl | ⟨3, _⟩ => rfl)
  have er : ∀ k, ridx_main_v0 (ix4 b h r c) k = ix4 b h c k := fun k =>
    funext fun a => Fin.ext (by match a with | ⟨0, _⟩ => rfl | ⟨1, _⟩ => rfl | ⟨2, _⟩ => rfl | ⟨3, _⟩ => rfl)
  simp only [e1, el, er]
  unfold Attn.mscore
  simp only [Ideal.hostDivf_def, Ideal.ofBits_def, Attn.div_eight, RowMax.ofBits_ninf_f32]

/-- The row's maximum. -/
theorem v8_apply (x0 x1 : FArr) (x3 : MArr) (b : Fin 2) (h : Fin 8) (r : Fin 4096) :
    val_main_v8 (F := Ideal) x0 x1 x3 (ix3 b h r)
      = Attn.rowMax (fun c => val_main_v5 (F := Ideal) x0 x1 x3 (ix4 b h r c)) := by
  rw [val_main_v8_apply, val_main_v7_apply, val_main_cst_2_apply]
  unfold val_main_v6
  rw [RowMax4.hostReduce_maximumf_last, val_main_cst_1_apply]
  simp only [Ideal.maximumf_def, Ideal.ofBits_def, RowMax.ofBits_ninf_f32, max_bot_left]
  rfl

/-- The shifted exponential. -/
theorem v12_apply (x0 x1 : FArr) (x3 : MArr) (b : Fin 2) (h : Fin 8) (r c : Fin 4096) :
    val_main_v12 (F := Ideal) x0 x1 x3 (ix4 b h r c)
      = Attn.rowExp (fun c' => val_main_v5 (F := Ideal) x0 x1 x3 (ix4 b h r c')) c := by
  rw [val_main_v12_apply, val_main_v11_apply, val_main_v10_apply, val_main_v9_apply]
  have e : idx_main_v9 (idx_main_v10 (ix4 b h r c)) = ix3 b h r :=
    funext fun a => Fin.ext (by match a with | ⟨0, _⟩ => rfl | ⟨1, _⟩ => rfl | ⟨2, _⟩ => rfl)
  rw [e, v8_apply]
  simp only [Ideal.hostUnary_exp_def, Ideal.subf_def]
  rfl

/-- The row's softmax. -/
theorem v16_apply (x0 x1 : FArr) (x3 : MArr) (b : Fin 2) (h : Fin 8) (r c : Fin 4096) :
    val_main_v16 (F := Ideal) x0 x1 x3 (ix4 b h r c)
      = Attn.softmax (fun c' => val_main_v5 (F := Ideal) x0 x1 x3 (ix4 b h r c')) c := by
  rw [val_main_v16_apply, val_main_v15_apply, val_main_v14_apply, val_main_v13_apply, val_main_cst_3_apply]
  have e : ∀ k, idx_main_v13 (idx_main_v14 (idx_main_v15 (ix4 b h r c))) k = ix4 b h r k := fun k =>
    funext fun a => Fin.ext (by match a with | ⟨0, _⟩ => rfl | ⟨1, _⟩ => rfl | ⟨2, _⟩ => rfl | ⟨3, _⟩ => rfl)
  simp only [e, v12_apply, Ideal.hostDivf_def, Ideal.ofBits_def, Ideal.ofBits_zero_f32, zero_add]
  rfl

/-- THE WEIGHTS: the reference's second result is the specification's attention weights. -/
theorem v16_eq (x0 x1 : FArr) (x3 : MArr) : val_main_v16 (F := Ideal) x0 x1 x3 = Attn.attn x0 x1 x3 := by
  funext i
  obtain ⟨b, h, r, c, rfl⟩ : ∃ b h r c, i = ix4 b h r c := ⟨i 0, i 1, i 2, i 3, eq_ix4 i⟩
  rw [v16_apply]
  simp only [v5_apply]
  rfl

/-- THE OUTPUT: the reference's first result is the specification's attention output. -/
theorem v17_eq (x0 x1 x2 : FArr) (x3 : MArr) : val_main_v17 (F := Ideal) x0 x1 x2 x3 = Attn.out x0 x1 x2 x3 := by
  funext i
  obtain ⟨b, h, r, d, rfl⟩ : ∃ b h r d, i = ix4 b h r d := ⟨i 0, i 1, i 2, i 3, eq_ix4 i⟩
  rw [val_main_v17_apply, v16_eq]
  have el : ∀ k, lidx_main_v17 (ix4 b h r d) k = ix4 b h r k := fun k =>
    funext fun a => Fin.ext (by match a with | ⟨0, _⟩ => rfl | ⟨1, _⟩ => rfl | ⟨2, _⟩ => rfl | ⟨3, _⟩ => rfl)
  have er : ∀ k, ridx_main_v17 (ix4 b h r d) k = ix4 b h k d := fun k =>
    funext fun a => Fin.ext (by match a with | ⟨0, _⟩ => rfl | ⟨1, _⟩ => rfl | ⟨2, _⟩ => rfl | ⟨3, _⟩ => rfl)
  simp only [el, er]
  rfl

end Cert.ReferenceIdeal.RefValue

end
-- ==== Proof.lean ====
/-
  Scaled dot-product attention that returns both the output and the attention weights, with a mask given as
  integers (0 means masked), over `q, k, v : f32[2, 8, 4096, 64]` and `mask : i32[1, 1, 4096, 4096]`.

  The kernel merges batch and head, and for each of 16 × 16 (query tile, batch-and-head) points forms the
  256 × 4096 scores `q kᵀ · (1/8)`, fills the masked entries with a large negative value, takes each row's
  softmax (maximum, shifted exponentials, their sum, the quotient), stores the weights and their product with
  the value matrix, and splits batch and head again.  The reference computes `einsum(q, k) / 8`, fills with
  `-∞`, applies the softmax along the last axis and multiplies by `v`.

  On the extended reals the two are one function, index by index: the kernel's fill value is named `-∞`, a
  change of float format is the identity, both matrix products are the same sums, the quotient by 8 is the
  product with 1/8, and the reference's extra maximum against `-∞` is the identity.  No step moves a factor
  across a sum or cancels anything, so finiteness of the inputs is never used.  The frames of the two printed
  kernels are the generated ones; the reference's frame is its generated run with the results dropped.
-/
import proofs.«112082_j3281355014500_2_alg».proof.Defs
import proofs.«112082_j3281355014500_2_alg».proof.Proof.Gen.Kernel
import proofs.«112082_j3281355014500_2_alg».proof.Proof.Gen.Kernel.Skeleton
import proofs.«112082_j3281355014500_2_alg».proof.Proof.Gen.Kernel.Launch
import proofs.«112082_j3281355014500_2_alg».proof.Proof.Gen.Kernel.Points
import proofs.«112082_j3281355014500_2_alg».proof.Proof.Gen.Kernel.Frame
import proofs.«112082_j3281355014500_2_alg».proof.Proof.Gen.KernelIdeal
import proofs.«112082_j3281355014500_2_alg».proof.Proof.Gen.KernelIdeal.Skeleton
import proofs.«112082_j3281355014500_2_alg».proof.Proof.Gen.KernelIdeal.Launch
import proofs.«112082_j3281355014500_2_alg».proof.Proof.Gen.KernelIdeal.Points
import proofs.«112082_j3281355014500_2_alg».proof.Proof.Gen.KernelIdeal.Frame
import proofs.«112082_j3281355014500_2_alg».proof.Proof.Gen.ReferenceIdeal
import proofs.«112082_j3281355014500_2_alg».proof.Proof.Gen.ReferenceIdeal.Run
import proofs.«112082_j3281355014500_2_alg».proof.Proof.Gen.ReferenceIdeal.Read
import proofs.«112082_j3281355014500_2_alg».proof.Proof.Gen.Pre_finite_inputs
import proofs.«112082_j3281355014500_2_alg».proof.Proof.KernelValue
import proofs.«112082_j3281355014500_2_alg».proof.Proof.RefValue
import Idealize.ShloMosaic.Adequacy
import Idealize.ShloMosaic.Init

noncomputable section

namespace Cert.Proof

open Idealize.ShloMosaic Idealize.ShloMosaic.TcCoe Idealize.SL.Sem

namespace Claims

theorem frame_p : @Cert.frame_Kernel Cert.Kernel.Gen.facts Cert.Pre_finite_inputs.Gen.facts :=
  fun m ρ _ => Cert.Kernel.Gen.frame m ρ

theorem frame_pi : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- The one rewrite of the idealization: the fill value is `-∞` by the certificate's table. -/
theorem preserves : Cert.preserves_Kernel_KernelIdeal :=
  IdealRules.named_const.statement Cert.KernelIdeal.κ "neg_big" .f32 0xFF333332#32 ⊥ rfl

/-- Both idealized programs end with the specification's output and weights of the (agreeing) arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.v17_eq,
      (hagree c).1, (hagree c).2.1, (hagree c).2.2.1, (hagree c).2.2.2]
  · rw [Cert.ReferenceIdeal.Read.val_main_v16_eq, Cert.ReferenceIdeal.RefValue.v16_eq,
      (hagree c).1, (hagree c).2.1, (hagree c).2.2.2]

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
